-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_6 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 7
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S128x128, .f32⟩
  | .hbm, ⟨5, _⟩ => ⟨S10000x128, .f32⟩
  | .hbm, ⟨6, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S128x128_S128x128_1_0 : S128x128.Transposes [1, 0] S128x128
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SlabBits.lean ====
/-
  One grid point of the kernel on its staging buffers: the inputs are read whole, and rows
  [400·i, 400·i + 400) of the output block — which is the whole 10000 × 128 result, resident across
  the grid — are overwritten with that point's slab tanh ((x0 · x1) · x2ᵀ); every other row of the block is
  left as it was. The statement is at any float instance.
-/
import proofs.«166560_g83811991814572_cont_sun_m_460_14_alg».proof.Proof.Gen.Kernel.Frame
import proofs.«166560_g83811991814572_cont_sun_m_460_14_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## The body on any whole staging buffers

One grid point loads its three input blocks whole, computes the 400 × 128 slab
`tanh ((x0 · x1) · x2ᵀ)` and stores it over rows `[o, o + 400)` of the output block, `o` the
point's row offset; the other rows of the output block are left as they were found. -/

/-- The zero offsets of a whole-block load. -/
theorem off_zero : (![0, 0] : Fin 2 → ℕ) = fun _ => 0 := funext fun a => by
  match a with
  | ⟨0, _⟩ => rfl
  | ⟨1, _⟩ => rfl

/-- `d'` is `d` with rows `[o, o + 400)` replaced by the slab `p`: row `o + x 0`, column `x 1` of `d'` is `p x`, and a
    row outside `[o, o + 400)` is `d`'s. -/
def Slab (o : ℕ) (p : FVec F S400x128 .f32) (d d' : Vec F S10000x128 .f32) : Prop :=
  (∀ (y : S10000x128.Idx) (x : S400x128.Idx), (y 0).val = o + (x 0).val → (y 1).val = (x 1).val → d' y = p x)
    ∧ ∀ y : S10000x128.Idx, ((y 0).val < o ∨ o + 400 ≤ (y 0).val) → d' y = d y

set_option maxHeartbeats 1000000 in
/-- The body's triple at a point whose row offset is `o`: the inputs come back as they were, the output block comes back
    with the slab of the inputs over rows `[o, o + 400)` and its other rows untouched. -/
theorem slab_run (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S400x10000 .f32) (x1 : Vec F S10000x128 .f32) (x2 : Vec F S128x128 .f32) (d : Vec F S10000x128 .f32)
    (o : ℕ) (ho : k0_off1 i = ![o, 0]) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d
            ∗ (iprop(owns (c : Thread nD τ) arg1 fullShare x0 ∗ owns (c : Thread nD τ) arg2 fullShare x1 ∗ owns (c : Thread nD τ) arg3 fullShare x2
                ∗ (∃ d', ⌜Slab o (k0_pay1 x0 x1 x2) d d'⌝ ∗ owns (c : Thread nD τ) arg4 fullShare d')) -∗ K ⟨⟩))
          ⊢ wp frame (wpE (defs₀ (F := F)) Variants.none c none) E (cc0__gconv_block_kernel i arg1 harg1 arg2 harg2 arg3 harg3 arg4 harg4) K := by
    intro E K
    simp only [cc0__gconv_block_kernel_eq_skeleton]; unfold cc0__gconv_block_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; swap
    · iexists _; isplitr; swap; · iexact H3
      ipureintro; rfl
    ipureintro
    -- each whole-block load reads the block
    have e0 : View.readAt (Elt F) arg1.view (Rect.unit (s := S400x10000) ![0, 0] S400x10000.size inb_S400x10000_S400x10000_0_0).toLoadRect (harg1.unread x0) = x0 := by
      rw [View.readAt_eq_ld, harg1.read_unread, View.ld_unit_zero (S := S400x10000) off_zero]
    have e1 : View.readAt (Elt F) arg2.view (Rect.unit (s := S10000x128) ![0, 0] S10000x128.size inb_S10000x128_S10000x128_0_0).toLoadRect (harg2.unread x1) = x1 := by
      rw [View.readAt_eq_ld, harg2.read_unread, View.ld_unit_zero (S := S10000x128) off_zero]
    have e2 : View.readAt (Elt F) arg3.view (Rect.unit (s := S128x128) ![0, 0] S128x128.size inb_S128x128_S128x128_0_0).toLoadRect (harg3.unread x2) = x2 := by
      rw [View.readAt_eq_ld, harg3.read_unread, View.ld_unit_zero (S := S128x128) off_zero]
    rw [e0, e1, e2]
    refine ⟨fun y x h0 h1 => ?_, fun y h => ?_⟩
    · exact View.read_writes_cons_rows_of_mem arg4.view f3 (k0_off1_inb i) _ [] y x ho h0 h1
    · rw [View.read_writes_cons_rows_of_not_mem arg4.view f3 (k0_off1_inb i) _ [] y ho rfl h, View.writes_nil, hf3]

end Cert.Kernel.Body

end
-- ==== Proof.BodyBits.lean ====
/-
  The kernel's run as a pipeline of 25 points over a resident output block. Point t stores the slab of its own
  400 rows and leaves the rest of the block alone, so what the block holds is known only on the rows already
  stored: the proof data relate what a point finds in the block to what it leaves (rows below 400·t right ⟹ rows
  below 400·(t+1) right) instead of naming the contents. From the body's triple this gives the body obligation,
  the run, and the frame (the argument arrays are inputs, never written back). At any float instance.
-/
import proofs.«166560_g83811991814572_cont_sun_m_460_14_alg».proof.Proof.SlabBits
import Idealize.ShloMosaic.Lib.ValueIdx
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slab of a point, and the block once every point has run -/

/-- The row offset the body computes at point `t` is `400 · t` (the 32-bit product does not wrap on 25 points). -/
theorem off_eq : ∀ t : Fin cfg0.N, k0_off1 (grid0.coords t) = ![400 * t.val, 0] :=
  (by decide +kernel : ∀ t : Fin grid0.N, k0_off1 (grid0.coords t) = ![400 * t.val, 0])

/-- The slab point `t` stores: `tanh ((A_t · B) · Cᵀ)` of its three input blocks. -/
def pay (c : Dev nD) (t : Fin cfg0.N) : FVec F S400x128 .f32 := k0_pay1 (iblk m c 0 t) (iblk m c 1 t) (iblk m c 2 t)

/-- Row `r` of the 10000-row block belongs to point `r / 400`. -/
theorem row_lt (j : S10000x128.Idx) : (j 0).val / 400 < cfg0.N :=
  lt_of_lt_of_eq (by have h : (j 0).val < 10000 := (j 0).isLt; omega : (j 0).val / 400 < 25) N_0.symm

/-- What the output block holds once every point has run: row `r` is row `r % 400` of the slab of point `r / 400`. -/
def tgt (c : Dev nD) : Vec F S10000x128 .f32 := fun j =>
  pay m c ⟨(j 0).val / 400, row_lt j⟩ (ValueIdx.ix2 ⟨(j 0).val % 400, Nat.mod_lt _ (by decide)⟩ ⟨(j 1).val, (j 1).isLt⟩)

/-- One point's step on the output block: if what it found agrees with `tgt` on the rows below `400 · t`, what it
    leaves agrees with `tgt` on the rows below `400 · (t + 1)`. -/
def Grown (c : Dev nD) (t : Fin cfg0.N) (Y X : Vec F S10000x128 .f32) : Prop :=
  (∀ j : S10000x128.Idx, (j 0).val < 400 * t.val → Y j = tgt m c j) →
    ∀ j : S10000x128.Idx, (j 0).val < 400 * (t.val + 1) → X j = tgt m c j

/-- Storing point `t`'s slab over rows `[400 t, 400 t + 400)` is such a step: the rows below keep what was found, the
    slab's rows are `tgt`'s by its definition (`r / 400 = t`, `r % 400 = r - 400 t` there). -/
theorem grown_of_slab (c : Dev nD) (t : Fin cfg0.N) (x0 : Vec F S400x10000 .f32) (x1 : Vec F S10000x128 .f32) (x2 : Vec F S128x128 .f32)
    (h0 : x0 = iblk m c 0 t) (h1 : x1 = iblk m c 1 t) (h2 : x2 = iblk m c 2 t) (Y X : Vec F S10000x128 .f32)
    (h : Slab (400 * t.val) (k0_pay1 x0 x1 x2) Y X) : Grown m c t Y X := by
  subst h0 h1 h2
  intro hprev j hj
  by_cases hlt : (j 0).val < 400 * t.val
  · rw [h.2 j (Or.inl hlt)]; exact hprev j hlt
  · have hq : (⟨(j 0).val / 400, row_lt j⟩ : Fin cfg0.N) = t := Fin.ext (by show (j 0).val / 400 = t.val; omega)
    rw [h.1 j (ValueIdx.ix2 ⟨(j 0).val % 400, Nat.mod_lt _ (by decide)⟩ ⟨(j 1).val, (j 1).isLt⟩)
      (by show (j 0).val = 400 * t.val + (j 0).val % 400; omega) rfl]
    unfold tgt pay
    rw [hq]

/-! ## The proof data -/

/-- The pipeline's proof data on core `c`, relational: the arrays as the region finds them; an input's staging buffer is
    left as found; the output block, which no point covers whole, is related to what was found by `Grown`; the invariant
    the class's; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => Grown m c t Y X
  Φ _ := Pipeline.ΦA spec0 c
  q _ := fullShare
  owed _ := 0

/-- An input's staging buffer, wherever the body is handed it, holds the window's block at that point. -/
theorem finds0 (c : Dev nD) (t : Fin cfg0.N) (Y) (hY : (rdat m c).Finds 0 t Y) : Y = iblk m c 0 t := by
  obtain ⟨d, h⟩ := (rdat m c).finds_in_eq_fetched 0 rfl (fun _ _ _ => rfl) (fun _ _ _ h => h) t Y hY
  exact h.trans (by unfold RDat.fetched RDat.blockOf iblk; rfl)
theorem finds1 (c : Dev nD) (t : Fin cfg0.N) (Y) (hY : (rdat m c).Finds 1 t Y) : Y = iblk m c 1 t := by
  obtain ⟨d, h⟩ := (rdat m c).finds_in_eq_fetched 1 rfl (fun _ _ _ => rfl) (fun _ _ _ h => h) t Y hY
  exact h.trans (by unfold RDat.fetched RDat.blockOf iblk; rfl)
theorem finds2 (c : Dev nD) (t : Fin cfg0.N) (Y) (hY : (rdat m c).Finds 2 t Y) : Y = iblk m c 2 t := by
  obtain ⟨d, h⟩ := (rdat m c).finds_in_eq_fetched 2 rfl (fun _ _ _ => rfl) (fun _ _ _ h => h) t Y hY
  exact h.trans (by unfold RDat.fetched RDat.blockOf iblk; rfl)

/-! ## The body obligation -/

/-- The body at any point, on whatever the windows' current buffers may hold: the inputs hold their blocks, so the slab
    stored is that point's `pay`; the inputs come back as found and the output block one `Grown` step on. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X))) := by
  have e0 := finds0 m c t (Y 0) (hY 0)
  have e1 := finds1 m c t (Y 1) (hY 1)
  have e2 := finds2 m c t (Y 2) (hY 2)
  rw [show (rdat m c).Φ t.succ = (rdat m c).Φ t.castSucc from rfl,
    show (rdat m c).owesAt () t.succ = (rdat m c).owesAt () t.castSucc from rfl]
  iintro ⟨HΦ, Ho, H0, H1, H2, H3⟩
  iapply ((slab_run c (grid0.coords t) _ _ _ _ _ _ _ _ (Y 0) (Y 1) (Y 2) (Y 3) (400 * t.val) (off_eq t)) Set.univ _)
  isplitl [H0]; · iexact H0
  isplitl [H1]; · iexact H1
  isplitl [H2]; · iexact H2
  isplitl [H3]; · iexact H3
  iintro ⟨H0, H1, H2, ⟨%d', %hd', H3⟩⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists d'; isplitr; · ipureintro; exact grown_of_slab m c t _ _ _ e0 e1 e2 _ _ hd'
  iexact H3

/-- The library's body obligation of the relational data, at every point. -/
theorem body_obligation (c : Dev nD) : (rdat (F := F) m c).BodyObligation (defs₀ (F := F)) Variants.none () Set.univ := fun t Y hY => by
  rw [bigSep_W0, bigSep_W0]
  exact sound_body m c t Y hY

/-! ## The run and the frame -/

set_option backward.isDefEq.respectTransparency.types false in
/-- Every weakly fair execution of @main terminates; every input array ends as it was, and the output array holds
    contents it may hold after the one write-back (`RDat.ArrAt`). -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame: the three argument arrays are staged inputs, never written back (`RDat.ArrAt_in`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Eq.mp (congrFun ((rdat m c).ArrAt_in 1 rfl _) _) ((h c).1 1)).trans (V_main_arg0 m c),
      (Eq.mp (congrFun ((rdat m c).ArrAt_in 0 rfl _) _) ((h c).1 0)).trans (V_main_arg1 m c),
      (Eq.mp (congrFun ((rdat m c).ArrAt_in 2 rfl _) _) ((h c).1 2)).trans (V_main_arg2 m c)⟩) (run_main m ρ)

end Cert.Kernel.Body

end
-- ==== Proof.Slab.lean ====
/-
  One grid point of the kernel on its staging buffers: the inputs are read whole, and rows
  [400·i, 400·i + 400) of the output block — which is the whole 10000 × 128 result, resident across
  the grid — are overwritten with that point's slab tanh ((x0 · x1) · x2ᵀ); every other row of the block is
  left as it was. The statement is at any float instance.
-/
import proofs.«166560_g83811991814572_cont_sun_m_460_14_alg».proof.Proof.Gen.KernelIdeal.Frame
import proofs.«166560_g83811991814572_cont_sun_m_460_14_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## The body on any whole staging buffers

One grid point loads its three input blocks whole, computes the 400 × 128 slab
`tanh ((x0 · x1) · x2ᵀ)` and stores it over rows `[o, o + 400)` of the output block, `o` the
point's row offset; the other rows of the output block are left as they were found. -/

/-- The zero offsets of a whole-block load. -/
theorem off_zero : (![0, 0] : Fin 2 → ℕ) = fun _ => 0 := funext fun a => by
  match a with
  | ⟨0, _⟩ => rfl
  | ⟨1, _⟩ => rfl

/-- `d'` is `d` with rows `[o, o + 400)` replaced by the slab `p`: row `o + x 0`, column `x 1` of `d'` is `p x`, and a
    row outside `[o, o + 400)` is `d`'s. -/
def Slab (o : ℕ) (p : FVec F S400x128 .f32) (d d' : Vec F S10000x128 .f32) : Prop :=
  (∀ (y : S10000x128.Idx) (x : S400x128.Idx), (y 0).val = o + (x 0).val → (y 1).val = (x 1).val → d' y = p x)
    ∧ ∀ y : S10000x128.Idx, ((y 0).val < o ∨ o + 400 ≤ (y 0).val) → d' y = d y

set_option maxHeartbeats 1000000 in
/-- The body's triple at a point whose row offset is `o`: the inputs come back as they were, the output block comes back
    with the slab of the inputs over rows `[o, o + 400)` and its other rows untouched. -/
theorem slab_run (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S400x10000 .f32) (x1 : Vec F S10000x128 .f32) (x2 : Vec F S128x128 .f32) (d : Vec F S10000x128 .f32)
    (o : ℕ) (ho : k0_off1 i = ![o, 0]) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d
            ∗ (iprop(owns (c : Thread nD τ) arg1 fullShare x0 ∗ owns (c : Thread nD τ) arg2 fullShare x1 ∗ owns (c : Thread nD τ) arg3 fullShare x2
                ∗ (∃ d', ⌜Slab o (k0_pay1 x0 x1 x2) d d'⌝ ∗ owns (c : Thread nD τ) arg4 fullShare d')) -∗ K ⟨⟩))
          ⊢ wp frame (wpE (defs₀ (F := F)) Variants.none c none) E (cc0__gconv_block_kernel i arg1 harg1 arg2 harg2 arg3 harg3 arg4 harg4) K := by
    intro E K
    simp only [cc0__gconv_block_kernel_eq_skeleton]; unfold cc0__gconv_block_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; swap
    · iexists _; isplitr; swap; · iexact H3
      ipureintro; rfl
    ipureintro
    -- each whole-block load reads the block
    have e0 : View.readAt (Elt F) arg1.view (Rect.unit (s := S400x10000) ![0, 0] S400x10000.size inb_S400x10000_S400x10000_0_0).toLoadRect (harg1.unread x0) = x0 := by
      rw [View.readAt_eq_ld, harg1.read_unread, View.ld_unit_zero (S := S400x10000) off_zero]
    have e1 : View.readAt (Elt F) arg2.view (Rect.unit (s := S10000x128) ![0, 0] S10000x128.size inb_S10000x128_S10000x128_0_0).toLoadRect (harg2.unread x1) = x1 := by
      rw [View.readAt_eq_ld, harg2.read_unread, View.ld_unit_zero (S := S10000x128) off_zero]
    have e2 : View.readAt (Elt F) arg3.view (Rect.unit (s := S128x128) ![0, 0] S128x128.size inb_S128x128_S128x128_0_0).toLoadRect (harg3.unread x2) = x2 := by
      rw [View.readAt_eq_ld, harg3.read_unread, View.ld_unit_zero (S := S128x128) off_zero]
    rw [e0, e1, e2]
    refine ⟨fun y x h0 h1 => ?_, fun y h => ?_⟩
    · exact View.read_writes_cons_rows_of_mem arg4.view f3 (k0_off1_inb i) _ [] y x ho h0 h1
    · rw [View.read_writes_cons_rows_of_not_mem arg4.view f3 (k0_off1_inb i) _ [] y ho rfl h, View.writes_nil, hf3]

end Cert.KernelIdeal.Body

end
-- ==== Proof.Body.lean ====
/-
  The kernel's run as a pipeline of 25 points over a resident output block. Point t stores the slab of its own
  400 rows and leaves the rest of the block alone, so what the block holds is known only on the rows already
  stored: the proof data relate what a point finds in the block to what it leaves (rows below 400·t right ⟹ rows
  below 400·(t+1) right) instead of naming the contents. From the body's triple this gives the body obligation,
  the run, and the frame (the argument arrays are inputs, never written back). At any float instance.
-/
import proofs.«166560_g83811991814572_cont_sun_m_460_14_alg».proof.Proof.Slab
import Idealize.ShloMosaic.Lib.ValueIdx
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slab of a point, and the block once every point has run -/

/-- The row offset the body computes at point `t` is `400 · t` (the 32-bit product does not wrap on 25 points). -/
theorem off_eq : ∀ t : Fin cfg0.N, k0_off1 (grid0.coords t) = ![400 * t.val, 0] :=
  (by decide +kernel : ∀ t : Fin grid0.N, k0_off1 (grid0.coords t) = ![400 * t.val, 0])

/-- The slab point `t` stores: `tanh ((A_t · B) · Cᵀ)` of its three input blocks. -/
def pay (c : Dev nD) (t : Fin cfg0.N) : FVec F S400x128 .f32 := k0_pay1 (iblk m c 0 t) (iblk m c 1 t) (iblk m c 2 t)

/-- Row `r` of the 10000-row block belongs to point `r / 400`. -/
theorem row_lt (j : S10000x128.Idx) : (j 0).val / 400 < cfg0.N :=
  lt_of_lt_of_eq (by have h : (j 0).val < 10000 := (j 0).isLt; omega : (j 0).val / 400 < 25) N_0.symm

/-- What the output block holds once every point has run: row `r` is row `r % 400` of the slab of point `r / 400`. -/
def tgt (c : Dev nD) : Vec F S10000x128 .f32 := fun j =>
  pay m c ⟨(j 0).val / 400, row_lt j⟩ (ValueIdx.ix2 ⟨(j 0).val % 400, Nat.mod_lt _ (by decide)⟩ ⟨(j 1).val, (j 1).isLt⟩)

/-- One point's step on the output block: if what it found agrees with `tgt` on the rows below `400 · t`, what it
    leaves agrees with `tgt` on the rows below `400 · (t + 1)`. -/
def Grown (c : Dev nD) (t : Fin cfg0.N) (Y X : Vec F S10000x128 .f32) : Prop :=
  (∀ j : S10000x128.Idx, (j 0).val < 400 * t.val → Y j = tgt m c j) →
    ∀ j : S10000x128.Idx, (j 0).val < 400 * (t.val + 1) → X j = tgt m c j

/-- Storing point `t`'s slab over rows `[400 t, 400 t + 400)` is such a step: the rows below keep what was found, the
    slab's rows are `tgt`'s by its definition (`r / 400 = t`, `r % 400 = r - 400 t` there). -/
theorem grown_of_slab (c : Dev nD) (t : Fin cfg0.N) (x0 : Vec F S400x10000 .f32) (x1 : Vec F S10000x128 .f32) (x2 : Vec F S128x128 .f32)
    (h0 : x0 = iblk m c 0 t) (h1 : x1 = iblk m c 1 t) (h2 : x2 = iblk m c 2 t) (Y X : Vec F S10000x128 .f32)
    (h : Slab (400 * t.val) (k0_pay1 x0 x1 x2) Y X) : Grown m c t Y X := by
  subst h0 h1 h2
  intro hprev j hj
  by_cases hlt : (j 0).val < 400 * t.val
  · rw [h.2 j (Or.inl hlt)]; exact hprev j hlt
  · have hq : (⟨(j 0).val / 400, row_lt j⟩ : Fin cfg0.N) = t := Fin.ext (by show (j 0).val / 400 = t.val; omega)
    rw [h.1 j (ValueIdx.ix2 ⟨(j 0).val % 400, Nat.mod_lt _ (by decide)⟩ ⟨(j 1).val, (j 1).isLt⟩)
      (by show (j 0).val = 400 * t.val + (j 0).val % 400; omega) rfl]
    unfold tgt pay
    rw [hq]

/-! ## The proof data -/

/-- The pipeline's proof data on core `c`, relational: the arrays as the region finds them; an input's staging buffer is
    left as found; the output block, which no point covers whole, is related to what was found by `Grown`; the invariant
    the class's; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => Grown m c t Y X
  Φ _ := Pipeline.ΦA spec0 c
  q _ := fullShare
  owed _ := 0

/-- An input's staging buffer, wherever the body is handed it, holds the window's block at that point. -/
theorem finds0 (c : Dev nD) (t : Fin cfg0.N) (Y) (hY : (rdat m c).Finds 0 t Y) : Y = iblk m c 0 t := by
  obtain ⟨d, h⟩ := (rdat m c).finds_in_eq_fetched 0 rfl (fun _ _ _ => rfl) (fun _ _ _ h => h) t Y hY
  exact h.trans (by unfold RDat.fetched RDat.blockOf iblk; rfl)
theorem finds1 (c : Dev nD) (t : Fin cfg0.N) (Y) (hY : (rdat m c).Finds 1 t Y) : Y = iblk m c 1 t := by
  obtain ⟨d, h⟩ := (rdat m c).finds_in_eq_fetched 1 rfl (fun _ _ _ => rfl) (fun _ _ _ h => h) t Y hY
  exact h.trans (by unfold RDat.fetched RDat.blockOf iblk; rfl)
theorem finds2 (c : Dev nD) (t : Fin cfg0.N) (Y) (hY : (rdat m c).Finds 2 t Y) : Y = iblk m c 2 t := by
  obtain ⟨d, h⟩ := (rdat m c).finds_in_eq_fetched 2 rfl (fun _ _ _ => rfl) (fun _ _ _ h => h) t Y hY
  exact h.trans (by unfold RDat.fetched RDat.blockOf iblk; rfl)

/-! ## The body obligation -/

/-- The body at any point, on whatever the windows' current buffers may hold: the inputs hold their blocks, so the slab
    stored is that point's `pay`; the inputs come back as found and the output block one `Grown` step on. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X))) := by
  have e0 := finds0 m c t (Y 0) (hY 0)
  have e1 := finds1 m c t (Y 1) (hY 1)
  have e2 := finds2 m c t (Y 2) (hY 2)
  rw [show (rdat m c).Φ t.succ = (rdat m c).Φ t.castSucc from rfl,
    show (rdat m c).owesAt () t.succ = (rdat m c).owesAt () t.castSucc from rfl]
  iintro ⟨HΦ, Ho, H0, H1, H2, H3⟩
  iapply ((slab_run c (grid0.coords t) _ _ _ _ _ _ _ _ (Y 0) (Y 1) (Y 2) (Y 3) (400 * t.val) (off_eq t)) Set.univ _)
  isplitl [H0]; · iexact H0
  isplitl [H1]; · iexact H1
  isplitl [H2]; · iexact H2
  isplitl [H3]; · iexact H3
  iintro ⟨H0, H1, H2, ⟨%d', %hd', H3⟩⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists d'; isplitr; · ipureintro; exact grown_of_slab m c t _ _ _ e0 e1 e2 _ _ hd'
  iexact H3

/-- The library's body obligation of the relational data, at every point. -/
theorem body_obligation (c : Dev nD) : (rdat (F := F) m c).BodyObligation (defs₀ (F := F)) Variants.none () Set.univ := fun t Y hY => by
  rw [bigSep_W0, bigSep_W0]
  exact sound_body m c t Y hY

/-! ## The run and the frame -/

set_option backward.isDefEq.respectTransparency.types false in
/-- Every weakly fair execution of @main terminates; every input array ends as it was, and the output array holds
    contents it may hold after the one write-back (`RDat.ArrAt`). -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame: the three argument arrays are staged inputs, never written back (`RDat.ArrAt_in`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Eq.mp (congrFun ((rdat m c).ArrAt_in 1 rfl _) _) ((h c).1 1)).trans (V_main_arg0 m c),
      (Eq.mp (congrFun ((rdat m c).ArrAt_in 0 rfl _) _) ((h c).1 0)).trans (V_main_arg1 m c),
      (Eq.mp (congrFun ((rdat m c).ArrAt_in 2 rfl _) _) ((h c).1 2)).trans (V_main_arg2 m c)⟩) (run_main m ρ)

end Cert.KernelIdeal.Body

end
-- ==== Proof.Final.lean ====
/-
  The output array after the kernel's run. Along the 25 points the resident output block is right on more and more
  rows — after point t on the rows below 400·(t+1) — and is written back once, whole, at the last point; so the
  array ends holding, in row r, row r % 400 of the slab of point r / 400. At any float instance.
-/
import proofs.«166560_g83811991814572_cont_sun_m_460_14_alg».proof.Proof.Body
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block along the points -/

theorem lt_N (t : Fin cfg0.N) : t.val < 25 := lt_of_lt_of_eq t.isLt N_0

/-- No point before the last writes the output block back. -/
theorem noflush (t : Fin cfg0.N) (h : t.val < 24) : ¬ (cfg0.win 3).flush t = true := fun hf => by
  have := (flush0_3 t).mp hf
  omega

/-- Whatever point `t` may leave in the output block agrees with `tgt` on the rows below `400 · (t + 1)`: at the first
    point the step's premise is empty; at a later one the block is what the point before left (it was not written back
    in between), so the premise is the induction hypothesis. -/
theorem leaves_tgt (c : Dev nD) : ∀ (n : ℕ) (t : Fin cfg0.N), t.val = n → ∀ X, (rdat m c).Leaves 3 t X →
    ∀ j : S10000x128.Idx, (j 0).val < 400 * (t.val + 1) → X j = tgt m c j
  | 0, t, ht => by
    rintro X ⟨Y, -, hg⟩
    have hg' : Grown m c t Y X := hg
    exact hg' fun j hj => absurd hj (by omega)
  | n + 1, t, ht => by
    rintro X ⟨Y, hY, hg⟩
    have hg' : Grown m c t Y X := hg
    have hf : (cfg0.win 3).fetch t = false := Pipeline.Window.fetch_out _ rfl t
    have hN := lt_N t
    rcases ((rdat m c).finds_of_pos hf (by omega) Y).mp hY with hfl | hL
    · exact absurd hfl (noflush _ (by show t.val - 1 < 24; omega))
    · have ih := leaves_tgt c n ⟨t.val - 1, Nat.lt_of_le_of_lt (Nat.sub_le _ _) t.isLt⟩ (by show t.val - 1 = n; omega) Y hL
      exact hg' fun j hj => ih j (by show (j 0).val < 400 * (t.val - 1 + 1); omega)

/-! ## The output array after the run -/

/-- Before the last point nothing has been written back: the output array may hold only its entry contents. -/
theorem arrAt_low (c : Dev nD) : ∀ n, n ≤ 24 → (rdat m c).ArrAt 3 n = fun G => G = (rdat m c).A 3
  | 0, _ => rfl
  | n + 1, h => by
    have hn : n < cfg0.N := lt_of_lt_of_eq (by omega : n < 25) N_0.symm
    rw [show n + 1 = (⟨n, hn⟩ : Fin cfg0.N).val + 1 from rfl, (rdat m c).ArrAt_succ 3 ⟨n, hn⟩, if_neg (noflush ⟨n, hn⟩ (by show n < 24; omega))]
    exact arrAt_low c n (by omega)

/-- The output's one block sits at block index (0, 0): the whole array. -/
theorem out_index : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- THE OUTPUT ARRAY after the run is `tgt`: the last point writes back the whole block, and what it may have left there
    agrees with `tgt` on all `400 · 25` rows. -/
theorem out_eq (c : Dev nD) (G : Buf (Elt F) ((cfg0.win 3).arr.view.loc (c.tc : Thread nD τ))) (h : (rdat m c).ArrAt 3 cfg0.N G) :
    G = tgt m c := by
  have hlast : (24 : ℕ) < cfg0.N := lt_of_lt_of_eq (by omega : (24 : ℕ) < 25) N_0.symm
  have h25 : (rdat m c).ArrAt 3 ((⟨24, hlast⟩ : Fin cfg0.N).val + 1) G := (congrArg (fun n => (rdat m c).ArrAt 3 n G) N_0).mp h
  rw [(rdat m c).ArrAt_succ 3 ⟨24, hlast⟩, if_pos ((flush0_3 _).mpr rfl), arrAt_low m c 24 le_rfl] at h25
  obtain ⟨G₀, X, -, hX, rfl⟩ := h25
  have hX' := leaves_tgt m c 24 ⟨24, hlast⟩ rfl X hX
  obtain ⟨i0, i1⟩ := out_index ⟨24, hlast⟩
  funext i
  have hi : ((cfg0.win 3).blk ⟨24, hlast⟩).view.emb i = i := by
    funext a; apply Fin.ext
    match a with
    | ⟨0, _⟩ => show win0_3.index ⟨24, hlast⟩ (0 : Fin 2) * 10000 + 1 * (i 0).val = (i 0).val; omega
    | ⟨1, _⟩ => show win0_3.index ⟨24, hlast⟩ (1 : Fin 2) * 128 + 1 * (i 1).val = (i 1).val; omega
  have hw := View.write_emb_of_mem (v := ((cfg0.win 3).blk ⟨24, hlast⟩).view) G₀ ((cfg0.win 3).cut (cfg0.grid.coords ⟨24, hlast⟩) X) (M := Finset.univ) (x := i) (Finset.mem_univ _)
  rw [hi] at hw
  refine hw.trans ?_
  show X i = tgt m c i
  exact hX' i (by have : (i 0).val < 10000 := (i 0).isLt; show (i 0).val < 400 * (24 + 1); omega)

/-! ## The run, read -/

/-- Every weakly fair execution of @main terminates with the output array at `tgt` and the argument arrays unchanged. -/
theorem run_value : θ_run defs (onTc (τ := τ) (main (F := F))) ⟨m, fun _ => 0, ρ⟩ (fun r => ∀ c : Dev nD,
      r.2.mem ((c.tc : Thread nD τ).loc main_v0) = tgt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨out_eq m c _ ((h c).1 3),
      (Eq.mp (congrFun ((rdat m c).ArrAt_in 1 rfl _) _) ((h c).1 1)).trans (V_main_arg0 m c),
      (Eq.mp (congrFun ((rdat m c).ArrAt_in 0 rfl _) _) ((h c).1 0)).trans (V_main_arg1 m c),
      (Eq.mp (congrFun ((rdat m c).ArrAt_in 2 rfl _) _) ((h c).1 2)).trans (V_main_arg2 m c)⟩) (run_main m ρ)

end Cert.KernelIdeal.Body

end
-- ==== Proof.PayIdeal.lean ====
/-
  The slab one grid point stores, read at an index, over the extended reals: entry (p, q) of the 400 × 128 slab is
  tanh ( Σ_k ( Σ_l x0 (p, l) · x1 (l, k) ) · x2 (q, k) ). Each matrix product into a zero accumulator is the plain
  sum over its one contracted axis; the second product contracts the last axis of both operands (a product with the
  transpose).
-/
import proofs.«166560_g83811991814572_cont_sun_m_460_14_alg».proof.Proof.Gen.KernelIdeal.Skeleton
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.ValueIdx

/-! ## The first product: a block of rows against the resident matrix -/

theorem d1_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem d1_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, k) of the first product is `Σ_l x0 (p, l) · x1 (l, k)`. -/
theorem dot1_apply (x0 : FVec Ideal S400x10000 .f32) (x1 : FVec Ideal S10000x128 .f32) (p : Fin 400) (k : Fin 128) :
    matmul (F := Ideal) dot_S400x10000_S10000x128_S400x128_1_0_0_1_n_n none x0 x1 (constant S400x128 .f32 0x00000000#32) (ix2 p k)
      = ∑ l : Fin 10000, x0 (ix2 p l) * x1 (ix2 l k) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hl := contrEquiv1_symm_val dot_S400x10000_S10000x128_S400x128_1_0_0_1_n_n 10000 rfl rfl l
  have el : dot_S400x10000_S10000x128_S400x128_1_0_0_1_n_n.lhsIdx (ix2 p k) ((contrEquiv1 dot_S400x10000_S10000x128_S400x128_1_0_0_1_n_n 10000 rfl rfl).symm l) = ix2 p l := funext fun a => Fin.ext (by
    match a with
    | ⟨0, _⟩ => exact d1_lhs0 _ _
    | ⟨1, _⟩ => exact (dot_S400x10000_S10000x128_S400x128_1_0_0_1_n_n.lhsIdx_val_of_single rfl _ _).trans hl)
  have er : dot_S400x10000_S10000x128_S400x128_1_0_0_1_n_n.rhsIdx (ix2 p k) ((contrEquiv1 dot_S400x10000_S10000x128_S400x128_1_0_0_1_n_n 10000 rfl rfl).symm l) = ix2 l k := funext fun a => Fin.ext (by
    match a with
    | ⟨0, _⟩ => exact (dot_S400x10000_S10000x128_S400x128_1_0_0_1_n_n.rhsIdx_val_of_single rfl _ _).trans hl
    | ⟨1, _⟩ => exact d1_rhs1 _ _)
  rw [el, er]

/-! ## The second product: against the transpose of the weight matrix -/

theorem d2_lhs0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem d2_rhs0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl

/-- Entry (p, q) of the second product is `Σ_k y (p, k) · x2 (q, k)`: the weight matrix is met along its last axis. -/
theorem dot2_apply (y : FVec Ideal S400x128 .f32) (x2 : FVec Ideal S128x128 .f32) (p : Fin 400) (q : Fin 128) :
    matmul (F := Ideal) dot_S400x128_S128x128_S400x128_1_1_0_0_n_n none y x2 (constant S400x128 .f32 0x00000000#32) (ix2 p q)
      = ∑ k : Fin 128, y (ix2 p k) * x2 (ix2 q k) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p q) ((contrEquiv1 dot_S400x128_S128x128_S400x128_1_1_0_0_n_n 128 rfl rfl).symm k) = ix2 p k := funext fun a => Fin.ext (by
    match a with
    | ⟨0, _⟩ => exact d2_lhs0 _ _
    | ⟨1, _⟩ => exact (dot_S400x128_S128x128_S400x128_1_1_0_0_n_n.lhsIdx_val_of_single rfl _ _).trans hk)
  have er : dot_S400x128_S128x128_S400x128_1_1_0_0_n_n.rhsIdx (ix2 p q) ((contrEquiv1 dot_S400x128_S128x128_S400x128_1_1_0_0_n_n 128 rfl rfl).symm k) = ix2 q k := funext fun a => Fin.ext (by
    match a with
    | ⟨0, _⟩ => exact d2_rhs0 _ _
    | ⟨1, _⟩ => exact (dot_S400x128_S128x128_S400x128_1_1_0_0_n_n.rhsIdx_val_of_single rfl _ _).trans hk)
  rw [el, er]

/-! ## The slab -/

/-- Entry (p, q) of the slab. -/
theorem pay_apply (x0 : Vec Ideal S400x10000 .f32) (x1 : Vec Ideal S10000x128 .f32) (x2 : Vec Ideal S128x128 .f32) (p : Fin 400) (q : Fin 128) :
    k0_pay1 (F := Ideal) x0 x1 x2 (ix2 p q)
      = Ideal.tanh (∑ k : Fin 128, (∑ l : Fin 10000, x0 (ix2 p l) * x1 (ix2 l k)) * x2 (ix2 q k)) := by
  unfold k0_pay1
  show Ideal.tanh (matmul (F := Ideal) dot_S400x128_S128x128_S400x128_1_1_0_0_n_n none _ x2 (constant S400x128 .f32 0x00000000#32) (ix2 p q)) = _
  rw [dot2_apply]
  exact congrArg Ideal.tanh (Finset.sum_congr rfl fun k _ => by rw [dot1_apply])

end Cert.KernelIdeal.Bridge

end
-- ==== Proof.Blocks.lean ====
/-
  The kernel's input blocks read at an index. Point t's block of A is rows [400 t, 400 t + 400) of A, all columns;
  B and C are resident, their one block the whole matrix at every point. At any float instance.
-/
import proofs.«166560_g83811991814572_cont_sun_m_460_14_alg».proof.Proof.Gen.KernelIdeal.Frame
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps over the grid: A's block index is (t, 0); B's and C's is (0, 0). -/
theorem in_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row `p` of point `t`'s block of A is row `400 t + p` of A. -/
theorem iblk0_apply (c : Dev nD) (t : Fin cfg0.N) (p : Fin 400) (l : Fin 10000) (i : S10000x10000.Idx)
    (hi0 : (i 0).val = 400 * t.val + p.val) (hi1 : (i 1).val = l.val) :
    iblk m c 0 t (ix2 p l) = m ((c.tc : Thread nD τ).loc main_arg1) i := by
  obtain ⟨e0, e1, -⟩ := in_index t
  unfold iblk
  show V m c main_arg1 (((cfg0.win 0).blk t).view.emb (ix2 p l)) = V m c main_arg1 i
  refine congrArg _ (funext fun a => Fin.ext ?_)
  match a with
  | ⟨0, _⟩ => show win0_0.index t (0 : Fin 2) * 400 + 1 * p.val = (i 0).val; omega
  | ⟨1, _⟩ => show win0_0.index t (1 : Fin 2) * 10000 + 1 * l.val = (i 1).val; omega

/-- B's block at any point is B. -/
theorem iblk1_apply (c : Dev nD) (t : Fin cfg0.N) (l : Fin 10000) (k : Fin 128) :
    iblk m c 1 t (ix2 l k) = m ((c.tc : Thread nD τ).loc main_arg0) (ix2 l k) := by
  obtain ⟨-, -, e0, e1, -⟩ := in_index t
  unfold iblk
  show V m c main_arg0 (((cfg0.win 1).blk t).view.emb (ix2 l k)) = V m c main_arg0 (ix2 l k)
  refine congrArg _ (funext fun a => Fin.ext ?_)
  match a with
  | ⟨0, _⟩ => show win0_1.index t (0 : Fin 2) * 10000 + 1 * l.val = l.val; omega
  | ⟨1, _⟩ => show win0_1.index t (1 : Fin 2) * 128 + 1 * k.val = k.val; omega

/-- C's block at any point is C. -/
theorem iblk2_apply (c : Dev nD) (t : Fin cfg0.N) (q : Fin 128) (k : Fin 128) :
    iblk m c 2 t (ix2 q k) = m ((c.tc : Thread nD τ).loc main_arg2) (ix2 q k) := by
  obtain ⟨-, -, -, -, e0, e1⟩ := in_index t
  unfold iblk
  show V m c main_arg2 (((cfg0.win 2).blk t).view.emb (ix2 q k)) = V m c main_arg2 (ix2 q k)
  refine congrArg _ (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

end Cert.KernelIdeal.Bridge

end
-- ==== Proof.Spec.lean ====
/-
  The function both programs compute, over the extended reals: for A : 10000 × 10000, B : 10000 × 128 and
  C : 128 × 128,   out (r, c) = tanh ( Σ_k ( Σ_l A (r, l) · B (l, k) ) · C (c, k) ),
  that is tanh ((A · B) · Cᵀ) with the products taken in that order. No law of arithmetic is needed to join the two
  programs: each computes exactly these nested sums, the kernel 400 rows at a time.
-/
import Idealize.ShloMosaic.PureOps.Ideal
import Idealize.ShloMosaic.Lib.ValueIdx

noncomputable section

namespace Cert.Spec

open Idealize.ShloMosaic Idealize.ShloMosaic.ValueIdx

/-- Entry (r, c) of `tanh ((A · B) · Cᵀ)`, the inner product first. -/
def G (B : FVec Ideal ⟨2, ![10000, 128]⟩ .f32) (A : FVec Ideal ⟨2, ![10000, 10000]⟩ .f32) (C : FVec Ideal ⟨2, ![128, 128]⟩ .f32) :
    FVec Ideal ⟨2, ![10000, 128]⟩ .f32 := fun j =>
  Ideal.tanh (∑ k : Fin 128, (∑ l : Fin 10000, (A (ix2 ⟨(j 0).val, (j 0).isLt⟩ l) : EReal) * (B (ix2 l k) : EReal)) * (C (ix2 ⟨(j 1).val, (j 1).isLt⟩ k) : EReal))

end Cert.Spec

end
-- ==== Proof.KernelValue.lean ====
/-
  The kernel's output array is the specification of its arguments, over the extended reals. Row r of the array is row
  r % 400 of the slab of point r / 400; that slab is tanh ((A_t · B) · Cᵀ) of the point's blocks, A_t rows
  [400 t, 400 t + 400) of A and B, C whole; and 400 · (r / 400) + r % 400 = r, so the entry is the one `Cert.Spec.G`
  states, sum for sum.
-/
import proofs.«166560_g83811991814572_cont_sun_m_460_14_alg».proof.Proof.Final
import proofs.«166560_g83811991814572_cont_sun_m_460_14_alg».proof.Proof.PayIdeal
import proofs.«166560_g83811991814572_cont_sun_m_460_14_alg».proof.Proof.Blocks
import proofs.«166560_g83811991814572_cont_sun_m_460_14_alg».proof.Proof.Spec

set_option maxRecDepth 16384

noncomputable section

namespace Cert.KernelIdeal.Bridge

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The array the kernel leaves is `G` of the three argument arrays. -/
theorem tgt_eq (c : Dev nD) :
    Body.tgt (F := Ideal) m c = Cert.Spec.G (m ((c.tc : Thread nD τ).loc main_arg0)) (m ((c.tc : Thread nD τ).loc main_arg1)) (m ((c.tc : Thread nD τ).loc main_arg2)) := by
  funext j
  unfold Body.tgt Body.pay Cert.Spec.G
  refine (pay_apply _ _ _ _ _).trans ?_
  refine congrArg Ideal.tanh (Finset.sum_congr rfl fun k _ => ?_)
  refine congr (congrArg HMul.hMul (Finset.sum_congr rfl fun l _ => ?_)) ?_
  · refine congr (congrArg HMul.hMul ?_) ?_
    · exact iblk0_apply m c _ _ l (ix2 ⟨(j 0).val, (j 0).isLt⟩ l)
        (by show (j 0).val = 400 * ((j 0).val / 400) + (j 0).val % 400; omega) rfl
    · exact iblk1_apply m c _ l k
  · exact iblk2_apply m c _ ⟨(j 1).val, (j 1).isLt⟩ k

end Cert.KernelIdeal.Bridge

end
-- ==== Proof.RefValue.lean ====
/-
  The reference's result, read index by index over the extended reals: the host computes A · B, then the product of that
  with the transpose of C, then tanh — at entry (r, c): tanh ( Σ_k ( Σ_l A (r, l) · B (l, k) ) · C (c, k) ), the transpose
  read as a swap of the two coordinates. This is the specification `Cert.Spec.G`.
-/
import proofs.«166560_g83811991814572_cont_sun_m_460_14_alg».proof.Proof.Gen.ReferenceIdeal.Read
import proofs.«166560_g83811991814572_cont_sun_m_460_14_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The operations' composed index maps are the plain coordinates -/

theorem a_idx (i : S10000x128.Idx) (k : Fin 128) (l : Fin 10000) :
    lidx_main_v0 (lidx_main_v2 i k) l = ix2 ⟨(i 0).val, (i 0).isLt⟩ l := funext fun a => Fin.ext (by
  match a with
  | ⟨0, _⟩ => rfl
  | ⟨1, _⟩ => rfl)

theorem b_idx (i : S10000x128.Idx) (k : Fin 128) (l : Fin 10000) :
    ridx_main_v0 (lidx_main_v2 i k) l = ix2 l k := funext fun a => Fin.ext (by
  match a with
  | ⟨0, _⟩ => rfl
  | ⟨1, _⟩ => rfl)

theorem c_idx (i : S10000x128.Idx) (k : Fin 128) :
    idx_main_v1 (ridx_main_v2 i k) = ix2 ⟨(i 1).val, (i 1).isLt⟩ k := funext fun a => Fin.ext (by
  match a with
  | ⟨0, _⟩ => rfl
  | ⟨1, _⟩ => rfl)

/-! ## The reference is the specification -/

/-- The reference's last stage is `G` of its arguments: the two `dot_general`s are the nested sums, the transpose swaps
    C's coordinates, and the host's tanh is the extended-real tanh. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v3 (F := Ideal) x0 x1 x2 = Cert.Spec.G x0 x1 x2 := by
  funext i
  rw [val_main_v3_apply, val_main_v2_apply]
  simp only [val_main_v0_apply, val_main_v1_apply, a_idx, b_idx, c_idx, Ideal.hostUnary_tanh_def]
  rfl

end Cert.ReferenceIdeal.RefValue

end
-- ==== Proof.lean ====
/-
  The certificate: the kernel computes tanh ((A · B) · Cᵀ) 400 rows at a time into an output block that stays resident
  over the 25 grid points and is written back once; the reference computes the same three operations on the whole
  matrices. Over the extended reals both results are, entry by entry, the same nested sums (`Cert.Spec.G`), so no
  arithmetic law and no finiteness of the inputs is used.

  * The two kernel programs' frames: the body's triple (Slab / SlabBits), the relational proof data, the body
    obligation and the run (Body / BodyBits) — one text at both float instances.
  * The kernel's result: the output array after the run (Final), its entries as sums (PayIdeal, Blocks, KernelValue).
  * The reference's frame and result: its generated run, read one operation at a time (RefValue).
  * The idealization rewrote nothing, so `preserves` has no conjunct.
-/
import proofs.«166560_g83811991814572_cont_sun_m_460_14_alg».proof.Defs
import proofs.«166560_g83811991814572_cont_sun_m_460_14_alg».proof.Proof.Gen.Kernel
import proofs.«166560_g83811991814572_cont_sun_m_460_14_alg».proof.Proof.Gen.KernelIdeal
import proofs.«166560_g83811991814572_cont_sun_m_460_14_alg».proof.Proof.Gen.ReferenceIdeal
import proofs.«166560_g83811991814572_cont_sun_m_460_14_alg».proof.Proof.Gen.Pre_finite_inputs
import proofs.«166560_g83811991814572_cont_sun_m_460_14_alg».proof.Proof.Gen.ReferenceIdeal.Run
import proofs.«166560_g83811991814572_cont_sun_m_460_14_alg».proof.Proof.Gen.ReferenceIdeal.Read
import proofs.«166560_g83811991814572_cont_sun_m_460_14_alg».proof.Proof.BodyBits
import proofs.«166560_g83811991814572_cont_sun_m_460_14_alg».proof.Proof.KernelValue
import proofs.«166560_g83811991814572_cont_sun_m_460_14_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `G` of the arguments they agree on. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.tgt_eq m c), (h c).2⟩)
      (Cert.KernelIdeal.Body.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v3_eq]
    exact Cert.ReferenceIdeal.RefValue.ref_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
